-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S16x1024x1024 : Shape := ⟨3, ![16, 1024, 1024]⟩
abbrev S16 : Shape := ⟨1, ![16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn {F : FTy → Type} [FloatOps F] (main_arg0 : FVec F S65536x1024 .f32) (main_arg1 : FVec F S16x1024x1024 .f32) (main_arg2 : IVec S16 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S65536x1024 : Shape := ⟨2, ![65536, 1024]⟩
abbrev S16x1024x1024 : Shape := ⟨3, ![16, 1024, 1024]⟩
abbrev S16 : Shape := ⟨1, ![16]⟩
abbrev S65536x512 : Shape := ⟨2, ![65536, 512]⟩
abbrev S1024x1024 : Shape := ⟨2, ![1024, 1024]⟩
abbrev S1x1024x1024 : Shape := ⟨3, ![1, 1024, 1024]⟩
abbrev S1024x512 : Shape := ⟨2, ![1024, 512]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S16x1024x1024, .f32⟩
  | .hbm, ⟨2, _⟩ => ⟨S16, .i32⟩
  | .hbm, ⟨3, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x512, .bf16⟩
  | .local _ .vmem, ⟨5, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x1024_o0_0_S512x1024 : S1024x1024.Slices ![0, 0] S512x1024
  slices_S1024x1024_o512_0_S512x1024 : S1024x1024.Slices ![512, 0] S512x1024
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .bf16 = 32 ∨ (Rect.block (s := S65536x512) S1024x512.size (cc0_transform_2 i) (hinb0_2 i)).WholeWords (EltTy.packing .bf16)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S16x1024x1024 : Shape := ⟨3, ![16, 1024, 1024]⟩
abbrev S16 : Shape := ⟨1, ![16]⟩
abbrev S16x4096x1024 : Shape := ⟨3, ![16, 4096, 1024]⟩
abbrev S65536x512 : Shape := ⟨2, ![65536, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x1024x1024, .f32⟩
  | .hbm, ⟨2, _⟩ => ⟨S16, .i32⟩
  | .hbm, ⟨3, _⟩ => ⟨S16x4096x1024, .f32⟩
  | .hbm, ⟨4, _⟩ => ⟨S16x4096x1024, .f32⟩
  | .hbm, ⟨5, _⟩ => ⟨S65536x1024, .f32⟩
  | .hbm, ⟨6, _⟩ => ⟨S65536x512, .f32⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S_, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S65536x1024_S16x4096x1024 : S65536x1024.ShapeCasts S16x4096x1024
  shapeCasts_S16x4096x1024_S65536x1024 : S16x4096x1024.ShapeCasts S65536x1024
  slices_S65536x1024_S65536x512_0_0 : S65536x1024.Slices ![0, 0] S65536x512
  slices_S65536x1024_S65536x512_0_512 : S65536x1024.Slices ![0, 512] S65536x512
  bcast_S_S65536x512 : S_.BroadcastsInDim S65536x512 (![] : Fin 0 → Fin S65536x512.rank)
  bitsLt_bf16_f32 : FTy.bits .bf16 < FTy.bits .f32
  dot_S16x4096x1024_S16x1024x1024_S16x4096x1024_2_2_1_1_0_0_wf : DotDims.WF S16x4096x1024 S16x1024x1024 S16x4096x1024 [2] [2] [1] [1] [0] [0]

variable [Facts₀]

def dot_S16x4096x1024_S16x1024x1024_S16x4096x1024_2_2_1_1_0_0 : DotDims S16x4096x1024 S16x1024x1024 S16x4096x1024 where
  lhsContracting := [2]
  rhsContracting := [2]
  lhsNonContracting := [1]
  rhsNonContracting := [1]
  lhsBatch := [0]
  rhsBatch := [0]
  wf := dot_S16x4096x1024_S16x1024x1024_S16x4096x1024_2_2_1_1_0_0_wf

class Facts : Prop extends Facts₀ where

variable [Facts]
-- ==== Proof.Swiglu.lean ====
/-
  The function both programs compute, stated once over the argument arrays.

  `x` is the token matrix: 65536 rows of 1024 features, the rows grouped by expert — rows 4096·e … 4096·e + 4095
  belong to expert `e`, sixteen experts. `w` holds, per expert, 1024 weight rows of 1024 features: rows 0 … 511 are
  the gate projection, rows 512 … 1023 the up projection. For token row `r` and output column `q < 512`,

      gate = Σ_k x[r, k] · w[e(r), q, k],     up = Σ_k x[r, k] · w[e(r), 512 + q, k],     e(r) = r / 4096,

  and the result at `(r, q)` is `gate · σ(gate) · up`, with `σ(t) = 1 / (1 + e^(−t))`. Everything is read on the
  extended reals with the exact operations, so no order of summation and no rounding is left in it.
-/
import Idealize.ShloMosaic.PureOps.Ideal
import Idealize.ShloMosaic.Lib.ValueIdx

noncomputable section

namespace Cert.Swiglu

open Idealize.ShloMosaic Idealize.ShloMosaic.ValueIdx
open scoped BigOperators

/-- The token matrix's shape, -/
abbrev Tokens : Shape := ⟨2, ![65536, 1024]⟩
/-- the packed per-expert weights', -/
abbrev Weights : Shape := ⟨3, ![16, 1024, 1024]⟩
/-- and the result's. -/
abbrev Result : Shape := ⟨2, ![65536, 512]⟩

/-- The expert that owns token row `r`: the rows are contiguous by expert, 4096 to each. -/
def expert (r : Fin 65536) : Fin 16 := ⟨r.val / 4096, by have := r.isLt; omega⟩

/-- Output column `q`'s gate row in an expert's packed weight: row `q`; -/
def gateRow (q : Fin 512) : Fin 1024 := ⟨q.val, by have := q.isLt; omega⟩

/-- and its up row: row `512 + q`. -/
def upRow (q : Fin 512) : Fin 1024 := ⟨512 + q.val, by have := q.isLt; omega⟩

/-- Token row `r` against weight row `o` of the row's own expert: the inner product over the 1024 features. -/
def proj (x : Tokens.Idx → EReal) (w : Weights.Idx → EReal) (r : Fin 65536) (o : Fin 1024) : EReal :=
  ∑ k : Fin 1024, x (ix2 r k) * w (ix3 (expert r) o k)

/-- The gated product `g · σ(g) · u`. -/
def gated (g u : EReal) : EReal := g * Ideal.logistic g * u

/-- The whole result array: at `(r, q)` the gated product of row `r`'s gate and up projections for column `q`. -/
def swiglu (x : Tokens.Idx → EReal) (w : Weights.Idx → EReal) : Result.Idx → EReal := fun i =>
  gated (proj x w (i 0) (gateRow (i 1))) (proj x w (i 0) (upRow (i 1)))

/-- The result read at an index given by its coordinates. -/
theorem swiglu_ix2 (x : Tokens.Idx → EReal) (w : Weights.Idx → EReal) (r : Fin 65536) (q : Fin 512) :
    swiglu x w (ix2 r q) = gated (proj x w r (gateRow q)) (proj x w r (upRow q)) := rfl

end Cert.Swiglu

end
-- ==== Proof.Payload.lean ====
/-
  The kernel body's stored value, read at an index.

  At one grid point the body holds a block of 1024 token rows (`x0`, [1024, 1024]) and one expert's packed weight
  (`x1`, [1, 1024, 1024]). It drops the unit axis of the weight, cuts it into its gate rows 0 … 511 and its up rows
  512 … 1023, multiplies the token block against each half (contracting the 1024 features, into a zero accumulator), and
  stores `gate · σ(gate) · up`. The changes of float format are the identity on the extended reals. So entry `(p, q)` of the stored block is
  the gated product of Σ_k x0[p, k] · x1[0, q, k] and Σ_k x0[p, k] · x1[0, 512 + q, k].
-/
import proofs.«127850_j24610162606479_2_alg».proof.Proof.Gen.KernelIdeal.Skeleton
import proofs.«127850_j24610162606479_2_alg».proof.Proof.Swiglu
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Swiglu
open scoped BigOperators

/-- The body's one contraction: [1024, 1024] against [512, 1024] over the second axis of each, no batch axis. -/
abbrev rowsByRows : DotDims S1024x1024 S512x1024 S1024x512 := dot_S1024x1024_S512x1024_S1024x512_1_1_0_0_n_n

/-! ## Where the contraction reads its operands -/

/-- The left operand is read in the output's row, -/
theorem lhs_row (j : S1024x512.Idx) (κ : rowsByRows.contr.Idx) : (rowsByRows.lhsIdx j κ 0).val = (j 0).val := by
  unfold DotDims.lhsIdx
  rw [dif_neg (show ¬(0 : Fin S1024x1024.rank) ∈ rowsByRows.lhsBatch by decide),
    dif_pos (show (0 : Fin S1024x1024.rank) ∈ rowsByRows.lhsNonContracting by decide)]
  rfl

/-- at the contracted feature; -/
theorem lhs_feature (j : S1024x512.Idx) (κ : rowsByRows.contr.Idx) : (rowsByRows.lhsIdx j κ 1).val = (κ ⟨0, by decide⟩).val :=
  rowsByRows.lhsIdx_val_of_single rfl j κ

/-- the right operand in the row the output's column names, -/
theorem rhs_row (j : S1024x512.Idx) (κ : rowsByRows.contr.Idx) : (rowsByRows.rhsIdx j κ 0).val = (j 1).val := by
  unfold DotDims.rhsIdx
  rw [dif_neg (show ¬(0 : Fin S512x1024.rank) ∈ rowsByRows.rhsBatch by decide),
    dif_pos (show (0 : Fin S512x1024.rank) ∈ rowsByRows.rhsNonContracting by decide)]
  rfl

/-- at the same feature. -/
theorem rhs_feature (j : S1024x512.Idx) (κ : rowsByRows.contr.Idx) : (rowsByRows.rhsIdx j κ 1).val = (κ ⟨0, by decide⟩).val :=
  rowsByRows.rhsIdx_val_of_single rfl j κ

/-- The product into a zero accumulator, at `(p, q)`: row `p` of the left operand against row `q` of the right one. -/
theorem product_apply (a : FVec Ideal S1024x1024 .bf16) (b : FVec Ideal S512x1024 .bf16) (p : Fin 1024) (q : Fin 512) :
    matmul (F := Ideal) rowsByRows none a b (constant (F := Ideal) S1024x512 .f32 0x00000000#32) (ix2 p q)
      = ∑ k : Fin 1024, a (ix2 p k) * b (ix2 q k) := by
  show FloatOps.matmul rowsByRows none a b (constant (F := Ideal) S1024x512 .f32 0x00000000#32) (ix2 p q) = _
  rw [Ideal.matmul_constant_zero_apply, ← Equiv.sum_comp (contrEquiv1 rowsByRows 1024 rfl rfl).symm]
  refine Finset.sum_congr rfl fun k _ => ?_
  have hk := contrEquiv1_symm_val rowsByRows 1024 rfl rfl k
  have el : rowsByRows.lhsIdx (ix2 p q) ((contrEquiv1 rowsByRows 1024 rfl rfl).symm k) = ix2 p k := funext fun a => Fin.ext (by
    match a with
    | ⟨0, _⟩ => exact lhs_row _ _
    | ⟨1, _⟩ => exact (lhs_feature _ _).trans hk)
  have er : rowsByRows.rhsIdx (ix2 p q) ((contrEquiv1 rowsByRows 1024 rfl rfl).symm k) = ix2 q k := funext fun a => Fin.ext (by
    match a with
    | ⟨0, _⟩ => exact rhs_row _ _
    | ⟨1, _⟩ => exact (rhs_feature _ _).trans hk)
  rw [el, er]

/-! ## The two halves of the packed weight -/

/-- Row `q` of the gate half is weight row `q` of the block's one expert; -/
theorem gate_half_apply (x1 : FVec Ideal S1x1024x1024 .f32) (hc : S1x1024x1024.ShapeCasts S1024x1024)
    (hs : S1024x1024.Slices ![0, 0] S512x1024) (q : Fin 512) (k : Fin 1024) :
    extractStridedSlice S512x1024 ![0, 0] (shapeCast S1024x1024 x1 hc) hs (ix2 q k) = x1 (ix3 (0 : Fin 1) (gateRow q) k) :=
  (extractStridedSlice_apply ![0, 0] (shapeCast S1024x1024 x1 hc) hs (ix2 q k) (ix2 (gateRow q) k) (fun a => match a with
    | ⟨0, _⟩ => by show q.val = 0 + q.val; omega
    | ⟨1, _⟩ => by show k.val = 0 + k.val; omega)).trans
  (shapeCast_apply x1 hc (ix2 (gateRow q) k) (ix3 (0 : Fin 1) (gateRow q) k)
    (by rewrite [Shape.rowMajor_val_three, Shape.rowMajor_val_two]; show (0 * 1024 + q.val) * 1024 + k.val = q.val * 1024 + k.val; omega))

/-- row `q` of the up half is weight row `512 + q`. -/
theorem up_half_apply (x1 : FVec Ideal S1x1024x1024 .f32) (hc : S1x1024x1024.ShapeCasts S1024x1024)
    (hs : S1024x1024.Slices ![512, 0] S512x1024) (q : Fin 512) (k : Fin 1024) :
    extractStridedSlice S512x1024 ![512, 0] (shapeCast S1024x1024 x1 hc) hs (ix2 q k) = x1 (ix3 (0 : Fin 1) (upRow q) k) :=
  (extractStridedSlice_apply ![512, 0] (shapeCast S1024x1024 x1 hc) hs (ix2 q k) (ix2 (upRow q) k) (fun a => match a with
    | ⟨0, _⟩ => by show 512 + q.val = 512 + q.val; rfl
    | ⟨1, _⟩ => by show k.val = 0 + k.val; omega)).trans
  (shapeCast_apply x1 hc (ix2 (upRow q) k) (ix3 (0 : Fin 1) (upRow q) k)
    (by rewrite [Shape.rowMajor_val_three, Shape.rowMajor_val_two]; show (0 * 1024 + (512 + q.val)) * 1024 + k.val = (512 + q.val) * 1024 + k.val; omega))

/-! ## The stored value -/

/-- ENTRY `(p, q)` OF THE STORED BLOCK: the gated product of token row `p` against the expert's gate row `q` and against its
    up row `512 + q`. -/
theorem payload_apply (x0 : FVec Ideal S1024x1024 .f32) (x1 : FVec Ideal S1x1024x1024 .f32) (p : Fin 1024) (q : Fin 512) :
    k0_pay1 (F := Ideal) x0 x1 (ix2 p q)
      = gated (∑ k : Fin 1024, x0 (ix2 p k) * x1 (ix3 (0 : Fin 1) (gateRow q) k))
          (∑ k : Fin 1024, x0 (ix2 p k) * x1 (ix3 (0 : Fin 1) (upRow q) k)) := by
  unfold k0_pay1
  refine (congrArg₂ gated (product_apply _ _ p q) (product_apply _ _ p q)).trans ?_
  refine congrArg₂ gated (Finset.sum_congr rfl fun k _ => ?_) (Finset.sum_congr rfl fun k _ => ?_)
  · exact congrArg (x0 (ix2 p k) * ·) (gate_half_apply x1 shapeCasts_S1x1024x1024_S1024x1024 slices_S1024x1024_o0_0_S512x1024 q k)
  · exact congrArg (x0 (ix2 p k) * ·) (up_half_apply x1 shapeCasts_S1x1024x1024_S1024x1024 slices_S1024x1024_o512_0_S512x1024 q k)

end Cert.KernelIdeal.Body

end
-- ==== Proof.Whole.lean ====
/-
  From the blocks to the whole array: after the run the kernel's result array is `Swiglu.swiglu` of its two float arguments.

  The grid has 16 × 4 points. Point `t` = (expert `e`, row tile `j`) reads token rows 1024·(4e + j) … 1024·(4e + j) + 1023 —
  block `b = 4e + j` of the token matrix, all 1024 features —, reads expert `e = b / 4`'s whole packed weight, and writes block
  `b` of the result (1024 rows, all 512 columns). A row `r = 1024·b + p` of that block belongs to expert `r / 4096 = b / 4`,
  which is the expert whose weight the point holds: so what the point stores (Payload) is exactly block `b` of `swiglu`.
  The 64 result blocks are the 64 row tiles of the array, so every index is written, by the point `b = r / 1024`.
-/
import proofs.«127850_j24610162606479_2_alg».proof.Proof.Gen.KernelIdeal.Value
import proofs.«127850_j24610162606479_2_alg».proof.Proof.Payload
import proofs.«127850_j24610162606479_2_alg».proof.Proof.Swiglu

noncomputable section

namespace Cert.KernelIdeal.Whole

open Cert.KernelIdeal Cert.KernelIdeal.Gen Idealize.ShloMosaic Idealize.ShloMosaic.TcCoe Idealize.SL.Sem
open Idealize.ShloMosaic.ValueIdx Cert.Swiglu
open Idealize.ShloMosaic.Pipeline (Dat)
open scoped BigOperators

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-! ## One block -/

/-- A STORED BLOCK IS A BLOCK OF `swiglu`: if the token block `x0` is row tile `b` of `X` and the weight block `x1` is expert
    `b / 4`'s slab of `W`, the stored entry `(p, q)` is `swiglu X W` at row `1024·b + p`, column `q` — that row's expert is
    `(1024·b + p) / 4096 = b / 4`. -/
theorem block_value (X : Tokens.Idx → EReal) (W : Weights.Idx → EReal)
    (x0 : FVec Ideal S1024x1024 .f32) (x1 : FVec Ideal S1x1024x1024 .f32) (b : Nat) (hb : b < 64)
    (h0 : ∀ (p k : Fin 1024), x0 (ix2 p k) = X (ix2 (⟨b * 1024 + p.val, by have := p.isLt; omega⟩ : Fin 65536) k))
    (h1 : ∀ (o k : Fin 1024), x1 (ix3 (0 : Fin 1) o k) = W (ix3 (⟨b / 4, by omega⟩ : Fin 16) o k))
    (p : Fin 1024) (q : Fin 512) :
    k0_pay1 (F := Ideal) x0 x1 (ix2 p q) = swiglu X W (ix2 (⟨b * 1024 + p.val, by have := p.isLt; omega⟩ : Fin 65536) q) := by
  have he : expert (⟨b * 1024 + p.val, by have := p.isLt; omega⟩ : Fin 65536) = (⟨b / 4, by omega⟩ : Fin 16) :=
    Fin.ext (by have := p.isLt; show (b * 1024 + p.val) / 4096 = b / 4; omega)
  rw [Body.payload_apply, swiglu_ix2]
  unfold proj
  rw [he]
  refine congrArg₂ gated (Finset.sum_congr rfl fun k _ => ?_) (Finset.sum_congr rfl fun k _ => ?_)
  · rw [h0, h1]
  · rw [h0, h1]

/-! ## The grid -/

/-- The printed index maps, decided over the 64 points: the token block and the result block are the same row tile, all
    columns; the weight block is expert (row tile) / 4, whole. -/
theorem tiles : ∀ t : Fin cfg0.N,
    win0_0.index t (0 : Fin 2) = win0_2.index t (0 : Fin 2)
    ∧ win0_0.index t (1 : Fin 2) = 0
    ∧ win0_1.index t (0 : Fin 3) = win0_2.index t (0 : Fin 2) / 4
    ∧ win0_1.index t (1 : Fin 3) = 0
    ∧ win0_1.index t (2 : Fin 3) = 0
    ∧ win0_2.index t (1 : Fin 2) = 0
    ∧ win0_2.index t (0 : Fin 2) < 64 :=
  (by decide +kernel : ∀ t : Fin grid0.N, _)

/-- Every one of the 64 row tiles is some point's result block. -/
theorem tile_onto : ∀ b : Fin 64, ∃ t : Fin cfg0.N, win0_2.index t = ![b.val, 0] :=
  (by decide +kernel : ∀ b : Fin 64, ∃ t : Fin grid0.N, win0_2.index t = ![b.val, 0])

/-- WHAT POINT `t` WRITES BACK is block `t` of `swiglu` of the argument arrays as the region finds them. -/
theorem flushed_eq (c : Dev nD) (t : Fin cfg0.N) :
    (dats m 0 c).flushed 2 t
      = ((cfg0.win 2).blk t).view.read (Elt Ideal) (swiglu (V m c main_arg0) (V m c main_arg1)) := by
  rw [Value.flushed2]
  unfold out0_2
  rw [View.canon_unit_zero origin2]
  simp only [View.ld_unit_zero (S := S1024x1024) origin2, View.ld_unit_zero (S := S1x1024x1024) origin3]
  obtain ⟨e00, e01, e10, e11, e12, e21, hlt⟩ := tiles t
  funext j
  show k0_pay1 (iblk m c 0 t) (iblk m c 1 t) j
    = swiglu (V m c main_arg0) (V m c main_arg1) (((cfg0.win 2).blk t).view.emb j)
  -- the token block is row tile `b` of the token matrix,
  have h0 : ∀ (p k : Fin 1024), iblk m c 0 t (ix2 p k)
      = V m c main_arg0 (ix2 (⟨win0_2.index t (0 : Fin 2) * 1024 + p.val, by have := p.isLt; omega⟩ : Fin 65536) k) := fun p k => by
    show V m c main_arg0 (((cfg0.win 0).blk t).view.emb (ix2 p k)) = _
    refine congrArg (V m c main_arg0) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 1024 + 1 * k.val = k.val; omega
  -- the weight block is expert `b / 4`'s slab,
  have h1 : ∀ (o k : Fin 1024), iblk m c 1 t (ix3 (0 : Fin 1) o k)
      = V m c main_arg1 (ix3 (⟨win0_2.index t (0 : Fin 2) / 4, by omega⟩ : Fin 16) o k) := fun o k => by
    show V m c main_arg1 (((cfg0.win 1).blk t).view.emb (ix3 (0 : Fin 1) o k)) = _
    refine congrArg (V m c main_arg1) (funext fun a => Fin.ext ?_)
    match a with
    | ⟨0, _⟩ => show win0_1.index t (0 : Fin 3) * 1 + 1 * 0 = win0_2.index t (0 : Fin 2) / 4; omega
    | ⟨1, _⟩ => show win0_1.index t (1 : Fin 3) * 1024 + 1 * o.val = o.val; omega
    | ⟨2, _⟩ => show win0_1.index t (2 : Fin 3) * 1024 + 1 * k.val = k.val; omega
  -- and entry `j` of the result block sits at row `1024·b + j₀`, column `j₁`.
  have hemb : ((cfg0.win 2).blk t).view.emb j
      = ix2 (⟨win0_2.index t (0 : Fin 2) * 1024 + (j 0).val, by have : (j 0).val < 1024 := (j 0).isLt; omega⟩ : Fin 65536) (j 1) :=
    funext fun a => Fin.ext (by
      match a with
      | ⟨0, _⟩ => show win0_2.index t (0 : Fin 2) * 1024 + 1 * (j 0).val = win0_2.index t (0 : Fin 2) * 1024 + (j 0).val; omega
      | ⟨1, _⟩ => show win0_2.index t (1 : Fin 2) * 512 + 1 * (j 1).val = (j 1).val; omega)
  exact ((congrArg (k0_pay1 (F := Ideal) (iblk m c 0 t) (iblk m c 1 t)) (eq_ix2 j)).trans
    (block_value (V m c main_arg0) (V m c main_arg1) (iblk m c 0 t) (iblk m c 1 t) (win0_2.index t (0 : Fin 2)) hlt h0 h1 (j 0) (j 1))).trans
    (congrArg (swiglu (V m c main_arg0) (V m c main_arg1)) hemb.symm)

/-! ## The cover -/

/-- An index of the result array is in point `t`'s block iff each coordinate is in the block's range on its axis. -/
theorem mem_blk (t : Fin cfg0.N) (i : S65536x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- EVERY INDEX IS WRITTEN: row `r` lies in row tile `r / 1024`, and each tile is some point's block. -/
theorem cover (i : S65536x512.Idx) : ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := tile_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-! ## The array, and the run -/

/-- THE RESULT ARRAY after the run is `swiglu` of the two float arguments as launched. -/
theorem final (c : Dev nD) :
    (dats m 0 c).arrAt 2 cfg0.N = swiglu (m ((c : Thread nD τ).loc main_arg0)) (m ((c : Thread nD τ).loc main_arg1)) :=
  (dats m 0 c).arrAt_eq_of_cover 2 (swiglu (V m c main_arg0) (V m c main_arg1)) (fun t _ => flushed_eq m c t) cover

/-- The kernel's run re-posted: the result at `swiglu` of the arguments, the arguments unchanged. -/
theorem run : θ_run defs (onTc (τ := τ) (main (F := Ideal))) ⟨m, fun _ => 0, ρ⟩ fun r => ∀ c : Dev nD,
      r.2.mem ((c : Thread nD τ).loc main_v0) = swiglu (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefSwiglu.lean ====
/-
  The reference computes `Swiglu.swiglu`.

  The reference reshapes the token matrix to [16, 4096, 1024] (row `r` becomes row `r % 4096` of group `r / 4096`),
  contracts the features of each group against that expert's 1024 weight rows, reshapes back to [65536, 1024] and
  cuts the columns in two halves, gate and up. Following one entry through these re-indexings: column `o` of row `r`
  of the reshaped product is Σ_k x[r, k] · w[r / 4096, o, k], which is `Swiglu.proj x w r o`. The sigmoid is spelt
  `1 / (1 + exp(−g))` with the literal `1.0`; on the extended reals that is the logistic function by definition.
-/
import proofs.«127850_j24610162606479_2_alg».proof.Proof.Gen.ReferenceIdeal.Read
import proofs.«127850_j24610162606479_2_alg».proof.Proof.Swiglu

noncomputable section

namespace Cert.ReferenceIdeal.RefValue

open Cert.ReferenceIdeal Cert.ReferenceIdeal.Read Idealize.ShloMosaic Idealize.ShloMosaic.ValueIdx Cert.Swiglu
open scoped BigOperators

/-- The pattern `0x3F800000` is the number one. -/
theorem one_f32 : Ideal.ofBits .f32 0x3F800000#32 = 1 := by
  simp [Ideal.ofBits, Ideal.ieee, -EReal.coe_mul]; norm_num

/-- The product reshaped back to [65536, 1024], read at row `r` and column `o`: the row's features against weight row
    `o` of the row's expert. Row `r` is row `r % 4096` of group `r / 4096`, and `(r / 4096) · 4096 + r % 4096 = r`. -/
theorem product_apply (x0 : (⟨S65536x1024, .f32⟩ : BufTy).Contents (Elt Ideal)) (x1 : (⟨S16x1024x1024, .f32⟩ : BufTy).Contents (Elt Ideal))
    (r : Fin 65536) (o : Fin 1024) : val_main_v2 (F := Ideal) x0 x1 (ix2 r o) = proj x0 x1 r o := by
  rw [val_main_v2_apply, val_main_v1_apply]
  unfold proj
  refine Finset.sum_congr rfl fun k _ => ?_
  rw [val_main_v0_apply]
  have hr : r.val < 65536 := r.isLt
  have ho : o.val < 1024 := o.isLt
  have hk : k.val < 1024 := k.isLt
  have el : idx_main_v0 (lidx_main_v1 (idx_main_v2 (ix2 r o)) k) = ix2 r k := funext fun a => Fin.ext (by
    match a with
    | ⟨0, _⟩ =>
      show (((r.val * 1024 + o.val) / 4194304 * 4096 + (r.val * 1024 + o.val) / 1024 % 4096) * 1024 + k.val) / 1024 = r.val
      omega
    | ⟨1, _⟩ =>
      show (((r.val * 1024 + o.val) / 4194304 * 4096 + (r.val * 1024 + o.val) / 1024 % 4096) * 1024 + k.val) % 1024 = k.val
      omega)
  have er : ridx_main_v1 (idx_main_v2 (ix2 r o)) k = ix3 (expert r) o k := funext fun a => Fin.ext (by
    match a with
    | ⟨0, _⟩ => show (r.val * 1024 + o.val) / 4194304 = r.val / 4096; omega
    | ⟨1, _⟩ => show (r.val * 1024 + o.val) % 1024 = o.val; omega
    | ⟨2, _⟩ => rfl)
  rw [el, er]

/-- THE REFERENCE'S RESULT is `swiglu` of its two float arguments: the gate half is columns 0 … 511 of the product, the up
    half columns 512 … 1023, and `1 / (1 + exp(−g))` is the logistic function. -/
theorem result_eq (x0 : (⟨S65536x1024, .f32⟩ : BufTy).Contents (Elt Ideal)) (x1 : (⟨S16x1024x1024, .f32⟩ : BufTy).Contents (Elt Ideal)) :
    val_main_v13 (F := Ideal) x0 x1 = swiglu x0 x1 := by
  funext i
  obtain ⟨r, q, rfl⟩ : ∃ (r : Fin 65536) (q : Fin 512), i = ix2 r q := ⟨i 0, i 1, eq_ix2 i⟩
  have e3 : idx_main_v3 (ix2 r q) = ix2 r (gateRow q) := funext fun a => Fin.ext (by
    match a with
    | ⟨0, _⟩ => rfl
    | ⟨1, _⟩ => rfl)
  have e4 : idx_main_v4 (ix2 r q) = ix2 r (upRow q) := funext fun a => Fin.ext (by
    match a with
    | ⟨0, _⟩ => rfl
    | ⟨1, _⟩ => rfl)
  rw [val_main_v13_apply, val_main_v12_apply, val_main_v11_apply, val_main_v10_apply, val_main_v9_apply, val_main_cst_0_apply,
    val_main_v8_apply, val_main_v7_apply, val_main_cst_apply, val_main_v6_apply, val_main_v5_apply, val_main_v4_apply,
    val_main_v3_apply, e3, e4, product_apply, product_apply, swiglu_ix2]
  show FloatOps.mulf (FloatOps.mulf _ (FloatOps.hostDivf (Ideal.ofBits .f32 0x3F800000#32) (FloatOps.addf (Ideal.ofBits .f32 0x3F800000#32) _))) _ = _
  rw [one_f32]
  rfl

end Cert.ReferenceIdeal.RefValue

end
-- ==== Proof.lean ====
/-
  A grouped projection with a gated epilogue: sixteen experts, 4096 consecutive token rows each. For token row `r` (1024
  features) and output column `q < 512`, with `e = r / 4096` the row's expert and `w[e]` its 1024 packed weight rows,

      gate = Σ_k x[r, k] · w[e, q, k],     up = Σ_k x[r, k] · w[e, 512 + q, k],     out[r, q] = gate · σ(gate) · up,

  `σ(t) = 1 / (1 + e^(−t))` (Proof/Swiglu.lean states this function once).

  The kernel walks a 16 × 4 grid: point (e, j) multiplies row tile `4e + j` (1024 rows) against the gate half and the up half of
  expert `e`'s weight and stores the gated product as the same row tile of the result. The reference reshapes the rows into
  [16, 4096, 1024], contracts each group against its expert's weight in one batched product, reshapes back and splits the
  columns. On the extended reals the two agree index by index with no algebra beyond re-indexing: the same 1024 products are
  summed on both sides, the factors in the same order, and the reference's `1 / (1 + exp(−g))` is the logistic function by
  definition. Nothing needs the inputs finite, so the precondition is never opened. The changes of float format are the
  identity at this reading, and the idealization rewrote nothing, so the fourth conjunct is `True`.

  The three frames are the generated ones (the reference's is its run with the result dropped). The value side:
  Proof/Payload.lean reads the stored block at an index, Proof/Whole.lean carries the blocks to the whole array over the
  generated blockwise run, Proof/RefSwiglu.lean reads the reference's run at an index.
-/
import proofs.«127850_j24610162606479_2_alg».proof.Defs
import proofs.«127850_j24610162606479_2_alg».proof.Proof.Gen.Kernel
import proofs.«127850_j24610162606479_2_alg».proof.Proof.Gen.Kernel.Skeleton
import proofs.«127850_j24610162606479_2_alg».proof.Proof.Gen.Kernel.Launch
import proofs.«127850_j24610162606479_2_alg».proof.Proof.Gen.Kernel.Points
import proofs.«127850_j24610162606479_2_alg».proof.Proof.Gen.Kernel.Frame
import proofs.«127850_j24610162606479_2_alg».proof.Proof.Gen.KernelIdeal
import proofs.«127850_j24610162606479_2_alg».proof.Proof.Gen.KernelIdeal.Skeleton
import proofs.«127850_j24610162606479_2_alg».proof.Proof.Gen.KernelIdeal.Launch
import proofs.«127850_j24610162606479_2_alg».proof.Proof.Gen.KernelIdeal.Points
import proofs.«127850_j24610162606479_2_alg».proof.Proof.Gen.KernelIdeal.Frame
import proofs.«127850_j24610162606479_2_alg».proof.Proof.Gen.ReferenceIdeal
import proofs.«127850_j24610162606479_2_alg».proof.Proof.Gen.Pre_finite_inputs
import proofs.«127850_j24610162606479_2_alg».proof.Proof.Gen.KernelIdeal.Value
import proofs.«127850_j24610162606479_2_alg».proof.Proof.Gen.ReferenceIdeal.Run
import proofs.«127850_j24610162606479_2_alg».proof.Proof.Gen.ReferenceIdeal.Read
import proofs.«127850_j24610162606479_2_alg».proof.Proof.Whole
import proofs.«127850_j24610162606479_2_alg».proof.Proof.RefSwiglu
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals, -/
theorem frame_kernelIdeal : Cert.frame_KernelIdeal := fun m ρ _ => Cert.KernelIdeal.Gen.frame m ρ

/-- and so does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the result array at `swiglu` of the token matrix and the
    packed weights: the kernel by its blocks (Proof/Whole.lean), the reference by its run read at an index
    (Proof/RefSwiglu.lean). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact (Cert.ReferenceIdeal.Read.val_main_v13_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
